-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x128 .f32) (main_arg1 : IVec S2x500000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x500000 : Shape := ⟨2, ![2, 500000]⟩
abbrev S256x128 : Shape := ⟨2, ![256, 128]⟩
abbrev S256 : Shape := ⟨1, ![256]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S500000x128 : Shape := ⟨2, ![500000, 128]⟩
abbrev S1x256 : Shape := ⟨2, ![1, 256]⟩
abbrev S128x256 : Shape := ⟨2, ![128, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S500000x256 : Shape := ⟨2, ![500000, 256]⟩

abbrev nBuf : Space → Nat
  | .hbm => 63
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S_, .f32⟩
  | .hbm, ⟨35, _⟩ => ⟨S50000x128, .f32⟩
  | .hbm, ⟨36, _⟩ => ⟨S500000x1, .i32⟩
  | .hbm, ⟨37, _⟩ => ⟨S50000x128, .f32⟩
  | .hbm, ⟨38, _⟩ => ⟨S1x256, .f32⟩
  | .hbm, ⟨39, _⟩ => ⟨S128x256, .f32⟩
  | .hbm, ⟨40, _⟩ => ⟨S128x256, .bf16⟩
  | .hbm, ⟨41, _⟩ => ⟨S128x256, .f32⟩
  | .hbm, ⟨42, _⟩ => ⟨S128x256, .bf16⟩
  | .hbm, ⟨43, _⟩ => ⟨S50000x256, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x256, .f32⟩
  | .hbm, ⟨53, _⟩ => ⟨S_, .f32⟩
  | .hbm, ⟨54, _⟩ => ⟨S50000x256, .f32⟩
  | .hbm, ⟨55, _⟩ => ⟨S500000x1, .i32⟩
  | .hbm, ⟨56, _⟩ => ⟨S50000x256, .f32⟩
  | .hbm, ⟨57, _⟩ => ⟨S1x256, .f32⟩
  | .hbm, ⟨58, _⟩ => ⟨S256x256, .f32⟩
  | .hbm, ⟨59, _⟩ => ⟨S256x256, .bf16⟩
  | .hbm, ⟨60, _⟩ => ⟨S256x256, .f32⟩
  | .hbm, ⟨61, _⟩ => ⟨S256x256, .bf16⟩
  | .hbm, ⟨62, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .bf16⟩
  | .local _ .vmem, ⟨7, _⟩ => ⟨S1x256, .f32⟩
  | .local _ .vmem, ⟨8, _⟩ => ⟨S128x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S2000x256, .f32⟩
  | .local _ .vmem, ⟨21, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  transposes_S256x128_S128x256_1_0 : S256x128.Transposes [1, 0] S128x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  transposes_S256x256_S256x256_1_0 : S256x256.Transposes [1, 0] S256x256
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S256x128 : Shape := ⟨2, ![256, 128]⟩
abbrev S256 : Shape := ⟨1, ![256]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S500000x256 : Shape := ⟨2, ![500000, 256]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .f32⟩
  | .hbm, ⟨22, _⟩ => ⟨S50000x128, .f32⟩
  | .hbm, ⟨23, _⟩ => ⟨S500000x1, .i32⟩
  | .hbm, ⟨24, _⟩ => ⟨S50000x128, .f32⟩
  | .hbm, ⟨25, _⟩ => ⟨S_, .f32⟩
  | .hbm, ⟨26, _⟩ => ⟨S500000, .f32⟩
  | .hbm, ⟨27, _⟩ => ⟨S_, .f32⟩
  | .hbm, ⟨28, _⟩ => ⟨S50000, .f32⟩
  | .hbm, ⟨29, _⟩ => ⟨S500000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x256, .f32⟩
  | .hbm, ⟨57, _⟩ => ⟨S_, .f32⟩
  | .hbm, ⟨58, _⟩ => ⟨S50000x256, .f32⟩
  | .hbm, ⟨59, _⟩ => ⟨S500000x1, .i32⟩
  | .hbm, ⟨60, _⟩ => ⟨S50000x256, .f32⟩
  | .hbm, ⟨61, _⟩ => ⟨S_, .f32⟩
  | .hbm, ⟨62, _⟩ => ⟨S500000, .f32⟩
  | .hbm, ⟨63, _⟩ => ⟨S_, .f32⟩
  | .hbm, ⟨64, _⟩ => ⟨S50000, .f32⟩
  | .hbm, ⟨65, _⟩ => ⟨S500000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S256x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x256_S50000x256_1_0_0_1_n_n_wf : DotDims.WF S50000x128 S128x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x256_S50000x256_1_0_0_1_n_n_wf : DotDims.WF S50000x256 S256x256 S50000x256 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its result named.

  The program is two launches among host operations. Its buffers at each boundary are a fold from the launch memory: the
  host operations' results, then the first launch's arrays at what its write-backs leave, then the host operations
  between the launches, then the second launch's arrays. Every weakly fair execution terminates with every unscoped
  buffer at the last boundary's contents; read at the result buffer this names the result, and read at the arguments it
  says they are as launched.
-/
import proofs.«111019_j30794915512417_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the arguments as launched. -/
theorem run : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.MeanLaw.lean ====
/-
  The one law that joins the two programs, and the layer both compute.

  A graph layer with mean aggregation sends a node's row to
      max ((∑ k, mean[n, k] · wl[k, j]) + b[j] + ∑ k, h[n, k] · wr[k, j], 0),
  where mean[n, k] is the neighbour sum agg[n, k] divided by max (cnt[n], 1), cnt[n] the number of incoming edges.
  One program divides; the other multiplies by the reciprocal 1 / max (cnt[n], 1) computed once. On the extended
  reals division by c is the product with c⁻¹ whenever c ≠ 0, and 1 / c is then c⁻¹ itself, so
      a · (1 / c) = a / c      for every extended real a, as soon as c ≠ 0;
  and c = max (cnt, 1) is at least 1, hence not 0, whatever cnt is. Nothing is asked of a: the law needs no finiteness.
-/
import Idealize.ShloMosaic.PureOps.Ideal
import Idealize.ShloMosaic.PureOps.Ideal.Laws

noncomputable section

namespace Cert.Sage

open Idealize.ShloMosaic

/-- The f32 word 0x3F800000 is the real number 1. -/
theorem ofBits_one_f32 : Ideal.ofBits .f32 0x3F800000#32 = 1 := by
  simp [Ideal.ofBits, Ideal.ieee, -EReal.coe_mul]; norm_num

/-- Multiplying by the reciprocal of a nonzero divisor is dividing by it, at the infinities too. -/
theorem mul_recip {a c : EReal} (hc : c ≠ 0) : a * Ideal.div 1 c = Ideal.div a c := by
  unfold Ideal.div
  rw [if_neg hc, if_neg hc, one_mul]

/-- A maximum with 1 is not 0. -/
theorem max_one_ne_zero (z : EReal) : max z 1 ≠ 0 :=
  ne_of_gt (lt_of_lt_of_le zero_lt_one (le_max_right z 1))

variable {N K J : ℕ}

/-- The layer with the mean taken as a product with a reciprocal column `inv`. -/
def layerMul (agg : Fin N → Fin K → EReal) (inv : Fin N → EReal) (h : Fin N → Fin K → EReal)
    (wl wr : Fin K → Fin J → EReal) (b : Fin J → EReal) (n : Fin N) (j : Fin J) : EReal :=
  max ((∑ k, (agg n k * inv n) * wl k j) + b j + ∑ k, h n k * wr k j) 0

/-- The layer with the mean taken as a quotient by max (cnt, 1). -/
def layerDiv (agg : Fin N → Fin K → EReal) (cnt : Fin N → EReal) (h : Fin N → Fin K → EReal)
    (wl wr : Fin K → Fin J → EReal) (b : Fin J → EReal) (n : Fin N) (j : Fin J) : EReal :=
  max ((∑ k, Ideal.div (agg n k) (max (cnt n) 1) * wl k j) + b j + ∑ k, h n k * wr k j) 0

/-- The two layers agree when the reciprocal column is 1 / max (cnt, 1). -/
theorem layer_eq (agg : Fin N → Fin K → EReal) (inv cnt : Fin N → EReal) (h : Fin N → Fin K → EReal)
    (wl wr : Fin K → Fin J → EReal) (b : Fin J → EReal)
    (hinv : ∀ n, inv n = Ideal.div 1 (max (cnt n) 1)) :
    layerMul agg inv h wl wr b = layerDiv agg cnt h wl wr b := by
  funext n j
  unfold layerMul layerDiv
  simp only [hinv n, mul_recip (max_one_ne_zero (cnt n))]

end Cert.Sage

end
-- ==== Proof.Payload1.lean ====
/-
  The first layer's body, read at one entry of its block.

  At a grid point the body holds a block of 2000 rows: the neighbour sums `agg` ([2000, 128]), the reciprocal column `inv`
  ([2000, 1]), the node features `h` ([2000, 128]), the two weight matrices already transposed ([128, 256]) and the bias as a
  row ([1, 256]). Entry (p, q) of what it stores is
      max ((∑ k, (agg[p, k] · inv[p, 0]) · wl[k, q]) + b[0, q] + ∑ k, h[p, k] · wr[k, q], 0):
  the column is broadcast along the row before the product, the narrowing to bf16 is the identity on extended reals, each
  matrix product into the zero accumulator is the plain sum over the contracted axis, the bias row is broadcast down the
  rows, and the final maximum is against the real 0.
-/
import proofs.«111019_j30794915512417_2_alg».proof.Proof.Gen.KernelIdeal.Skeleton
import proofs.«111019_j30794915512417_2_alg».proof.Proof.LibPlainProduct
import proofs.«111019_j30794915512417_2_alg».proof.Proof.LibColumnLayout
import proofs.«111019_j30794915512417_2_alg».proof.Proof.MeanLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Cert.KernelIdeal Cert.KernelIdeal.Gen Idealize.ShloMosaic Idealize.ShloMosaic.ValueIdx

/-! ## The product's index maps: left operand read at (row, k), right operand at (k, column) -/

theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_k (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_k (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A product of the block with a resident weight matrix, into the zero accumulator, at entry (p, q). -/
theorem product_entry {φ₁ φ₂ : FTy} (l : FVec Ideal S2000x128 φ₁) (r : FVec Ideal S128x256 φ₂) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) :=
  Cert.PlainProduct.matmul_zero_entry dot_S2000x128_S128x256_S2000x256_1_0_0_1_n_n rfl rfl lhs_row lhs_k rhs_k rhs_col l r p q

/-- Entry (p, q) of the body's stored block is the layer's row p, column q, of the loaded blocks. -/
theorem pay_apply (v0 : Vec Ideal S2000x128 .f32) (v2 : Vec Ideal S2000x1 .f32) (v7 : Vec Ideal S2000x128 .f32)
    (v9 : Vec Ideal S128x256 .bf16) (v12 : Vec Ideal S128x256 .bf16) (v15 : Vec Ideal S1x256 .f32) (p : Fin 2000) (q : Fin 256) :
    k0_pay1 (F := Ideal) v0 v2 v7 v9 v12 v15 (ix2 p q)
      = Cert.Sage.layerMul (fun n k => v0 (ix2 n k)) (fun n => v2 (ix2 n (0 : Fin 1))) (fun n k => v7 (ix2 n k))
          (fun k j => v9 (ix2 k j)) (fun k j => v12 (ix2 k j)) (fun j => v15 (ix2 (0 : Fin 1) j)) p q := by
  unfold k0_pay1 Cert.Sage.layerMul
  dsimp only
  rw [maximumf_apply, addf_apply, addf_apply, broadcast_apply]
  rw [product_entry, product_entry,
    show (FloatOps.ofBits (F := Ideal) FTy.f32 0x00000000#32 : EReal) = 0 from Ideal.ofBits_zero_f32]
  simp only [truncf_apply, mulf_apply, shapeCast_self, Cert.ColumnLayout.broadcastTo_a1_ab_apply,
    broadcastTo_1b_ab_apply]

end Cert.KernelIdeal.Layer1

end
-- ==== Proof.LayerRows.lean ====
/-
  A layer's entry depends on one row of the node arrays and one column of the weights.

  Entry (n, j) of the layer reads agg[n, ·], inv[n], h[n, ·], wl[·, j], wr[·, j] and b[j] only. So two layers over arrays
  of different heights agree at (n, j) and (n', j') as soon as those rows and columns agree: this is what lets a block
  of 2000 rows be read as rows of the whole array.
-/
import proofs.«111019_j30794915512417_2_alg».proof.Proof.MeanLaw

noncomputable section

namespace Cert.Sage

variable {N N' K J J' : ℕ}

theorem layerMul_rows (agg : Fin N → Fin K → EReal) (inv : Fin N → EReal) (h : Fin N → Fin K → EReal)
    (wl wr : Fin K → Fin J → EReal) (b : Fin J → EReal)
    (agg' : Fin N' → Fin K → EReal) (inv' : Fin N' → EReal) (h' : Fin N' → Fin K → EReal)
    (wl' wr' : Fin K → Fin J' → EReal) (b' : Fin J' → EReal)
    (n : Fin N) (n' : Fin N') (j : Fin J) (j' : Fin J')
    (e0 : ∀ k, agg n k = agg' n' k) (e1 : inv n = inv' n') (e2 : ∀ k, h n k = h' n' k)
    (e3 : ∀ k, wl k j = wl' k j') (e5 : ∀ k, wr k j = wr' k j') (e4 : b j = b' j') :
    layerMul agg inv h wl wr b n j = layerMul agg' inv' h' wl' wr' b' n' j' := by
  unfold layerMul
  simp only [e0, e1, e2, e3, e5, e4]

end Cert.Sage

end
-- ==== Proof.Region1.lean ====
/-
  The array the first launch leaves.

  The launch walks 25 grid points; point t stages rows 2000·t … 2000·t + 1999 of the neighbour sums, of the reciprocal
  column and of the node features, the two weight matrices and the bias row whole, runs the body and writes the 2000
  result rows back to rows 2000·t … of the output. Entry (p, q) of what a point stores is the layer at row p of its
  blocks; a block's row p is row 2000·t + p of its array, so the stored block is rows 2000·t … of the layer applied
  to the whole arrays. The 25 blocks tile the 50000 rows (row r lies in block r / 2000), so the output array ends as
  that layer, every entry.
-/
import proofs.«111019_j30794915512417_2_alg».proof.Proof.Gen.KernelIdeal.Frame
import proofs.«111019_j30794915512417_2_alg».proof.Proof.Payload1
import proofs.«111019_j30794915512417_2_alg».proof.Proof.LayerRows
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The layer over whole arrays: neighbour sums, reciprocal column, features, the transposed weights, the bias row. -/
def layer (A0 : S50000x128.Idx → EReal) (A1 : S50000x1.Idx → EReal) (A2 : S50000x128.Idx → EReal)
    (A3 : S128x256.Idx → EReal) (A4 : S1x256.Idx → EReal) (A5 : S128x256.Idx → EReal) : S50000x256.Idx → EReal :=
  fun i => Cert.Sage.layerMul (fun n k => A0 (ix2 n k)) (fun n => A1 (ix2 n (0 : Fin 1))) (fun n k => A2 (ix2 n k))
    (fun k j => A3 (ix2 k j)) (fun k j => A5 (ix2 k j)) (fun j => A4 (ix2 (0 : Fin 1) j)) (i 0) (i 1)

theorem origin : (![0, 0] : Fin 2 → Nat) = fun _ => 0 := funext fun a => by fin_cases a <;> rfl

/-- Where each window's block sits at grid point t: the three row-tiled inputs and the output at block row t, column
    block 0; the weights and the bias at block (0, 0). Decided over the 25 points. -/
theorem block_index : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) = t.val :=
  (by decide +kernel : ∀ t : Fin grid0.N, _)

variable (V : (c : Dev nD) → (b : Ref sig .tc) → Buf (Elt Ideal) ((c : Thread nD τ).loc b))

/-- What point t writes back is rows 2000·t … of the layer over the arrays as the launch finds them. -/
theorem flushed_eq (c : Dev nD) (t : Fin cfg0.N) :
    (dat0 V c).flushed 6 t = ((cfg0.win 6).blk t).view.read (Elt Ideal)
      (layer (V c main_v22) (V c main_v12) (V c main_arg0) (V c main_v25) (V c main_v23) (V c main_v27)) := by
  show (cfg0.win 6).cut (grid0.coords t) ((dat0 V c).after 6 t) = _
  rw [after0_6]
  unfold out0_6
  rw [View.canon_unit_zero origin]
  simp only [View.ld_unit_zero (S := S2000x128) origin, View.ld_unit_zero (S := S2000x1) origin,
    View.ld_unit_zero (S := S128x256) origin, View.ld_unit_zero (S := S1x256) origin]
  obtain ⟨a0, a1, b0, b1, c0, c1, d0, d1, e0, e1, f0, f1, g1, g0⟩ := block_index t
  funext j
  show k0_pay1 (iblk0 V c 0 t) (iblk0 V c 1 t) (iblk0 V c 2 t) (iblk0 V c 3 t) (iblk0 V c 5 t) (iblk0 V c 4 t) j
      = layer (V c main_v22) (V c main_v12) (V c main_arg0) (V c main_v25) (V c main_v23) (V c main_v27) (((cfg0.win 6).blk t).view.emb j)
  refine (congrArg _ (eq_ix2 (n0 := 2000) (n1 := 256) j)).trans
    ((Cert.KernelIdeal.Layer1.pay_apply _ _ _ _ _ _ (j 0) (j 1)).trans ?_)
  unfold layer
  refine Cert.Sage.layerMul_rows _ _ _ _ _ _ _ _ _ _ _ _ _ _ _ _
    (fun k => ?_) ?_ (fun k => ?_) (fun k => ?_) (fun k => ?_) ?_
  · show V c main_v22 (((cfg0.win 0).blk t).view.emb (ix2 (j 0) k)) = V c main_v22 (ix2 ((((cfg0.win 6).blk t).view.emb j) 0) k)
    refine congrArg (V c main_v22) (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * k.val = k.val; omega
  · show V c main_v12 (((cfg0.win 1).blk t).view.emb (ix2 (j 0) (0 : Fin 1))) = V c main_v12 (ix2 ((((cfg0.win 6).blk t).view.emb j) 0) (0 : Fin 1))
    refine congrArg (V c main_v12) (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 1 + 1 * 0 = 0; omega
  · show V c main_arg0 (((cfg0.win 2).blk t).view.emb (ix2 (j 0) k)) = V c main_arg0 (ix2 ((((cfg0.win 6).blk t).view.emb j) 0) k)
    refine congrArg (V c main_arg0) (funext fun a => Fin.ext ?_)
    match a with
    | ⟨0, _⟩ => show win0_2.index t (0 : Fin 2) * 2000 + 1 * (j 0).val = win0_6.index t (0 : Fin 2) * 2000 + 1 * (j 0).val; omega
    | ⟨1, _⟩ => show win0_2.index t (1 : Fin 2) * 128 + 1 * k.val = k.val; omega
  · show V c main_v25 (((cfg0.win 3).blk t).view.emb (ix2 k (j 1))) = V c main_v25 (ix2 k ((((cfg0.win 6).blk t).view.emb j) 1))
    refine congrArg (V c main_v25) (funext fun a => Fin.ext ?_)
    match a with
    | ⟨0, _⟩ => show win0_3.index t (0 : Fin 2) * 128 + 1 * k.val = k.val; omega
    | ⟨1, _⟩ => show win0_3.index t (1 : Fin 2) * 256 + 1 * (j 1).val = win0_6.index t (1 : Fin 2) * 256 + 1 * (j 1).val; omega
  · show V c main_v27 (((cfg0.win 5).blk t).view.emb (ix2 k (j 1))) = V c main_v27 (ix2 k ((((cfg0.win 6).blk t).view.emb j) 1))
    refine congrArg (V c main_v27) (funext fun a => Fin.ext ?_)
    match a with
    | ⟨0, _⟩ => show win0_5.index t (0 : Fin 2) * 128 + 1 * k.val = k.val; omega
    | ⟨1, _⟩ => show win0_5.index t (1 : Fin 2) * 256 + 1 * (j 1).val = win0_6.index t (1 : Fin 2) * 256 + 1 * (j 1).val; omega
  · show V c main_v23 (((cfg0.win 4).blk t).view.emb (ix2 (0 : Fin 1) (j 1))) = V c main_v23 (ix2 (0 : Fin 1) ((((cfg0.win 6).blk t).view.emb j) 1))
    refine congrArg (V c main_v23) (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_6.index t (1 : Fin 2) * 256 + 1 * (j 1).val; omega

/-- An index of the output array lies in point t's block iff each coordinate lies in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v28).slice (win0_6.rect t)).set ↔ _
  rw [View.set_slice_whole, Rect.mem_set_unit]
  exact Iff.rfl

/-- Every entry of the output lies in some point's block: row r in the block of point r / 2000. -/
theorem cover (i : S50000x256.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 256 := (i 1).isLt
  have ht : (i 0).val / 2000 < cfg0.N := by rw [hN]; omega
  refine ⟨⟨(i 0).val / 2000, ht⟩, flush0_6 _, ?_⟩
  rw [mem_blk]
  obtain ⟨-, -, -, -, -, -, -, -, -, -, -, -, g1, g0⟩ := block_index ⟨(i 0).val / 2000, ht⟩
  have g0' : win0_6.index ⟨(i 0).val / 2000, ht⟩ (0 : Fin 2) = (i 0).val / 2000 := g0
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    omega

/-- After its 25 write-backs the output array is the layer over the arrays as the launch found them. -/
theorem final (c : Dev nD) : (dat0 V c).arrAt 6 cfg0.N
    = layer (V c main_v22) (V c main_v12) (V c main_arg0) (V c main_v25) (V c main_v23) (V c main_v27) :=
  (dat0 V c).arrAt_eq_of_cover 6 _ (fun t _ => flushed_eq V c t) cover

end Cert.KernelIdeal.Region1

end
-- ==== Proof.Payload2.lean ====
/-
  The second layer's body, read at one entry of its block.

  At a grid point the body holds a block of 2000 rows: the neighbour sums `agg` ([2000, 256]), the reciprocal column `inv`
  ([2000, 1]), the node features `h` ([2000, 256]), the two weight matrices already transposed ([256, 256]) and the bias as a
  row ([1, 256]). Entry (p, q) of what it stores is
      max ((∑ k, (agg[p, k] · inv[p, 0]) · wl[k, q]) + b[0, q] + ∑ k, h[p, k] · wr[k, q], 0):
  the column is broadcast along the row before the product, the narrowing to bf16 is the identity on extended reals, each
  matrix product into the zero accumulator is the plain sum over the contracted axis, the bias row is broadcast down the
  rows, and the final maximum is against the real 0.
-/
import proofs.«111019_j30794915512417_2_alg».proof.Proof.Gen.KernelIdeal.Skeleton
import proofs.«111019_j30794915512417_2_alg».proof.Proof.LibPlainProduct
import proofs.«111019_j30794915512417_2_alg».proof.Proof.LibColumnLayout
import proofs.«111019_j30794915512417_2_alg».proof.Proof.MeanLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer2

open Cert.KernelIdeal Cert.KernelIdeal.Gen Idealize.ShloMosaic Idealize.ShloMosaic.ValueIdx

/-! ## The product's index maps: left operand read at (row, k), right operand at (k, column) -/

theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_k (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_k (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product of the block with a resident weight matrix, into the zero accumulator, at entry (p, q). -/
theorem product_entry {φ₁ φ₂ : FTy} (l : FVec Ideal S2000x256 φ₁) (r : FVec Ideal S256x256 φ₂) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) :=
  Cert.PlainProduct.matmul_zero_entry dot_S2000x256_S256x256_S2000x256_1_0_0_1_n_n rfl rfl lhs_row lhs_k rhs_k rhs_col l r p q

/-- Entry (p, q) of the body's stored block is the layer's row p, column q, of the loaded blocks. -/
theorem pay_apply (v0 : Vec Ideal S2000x256 .f32) (v2 : Vec Ideal S2000x1 .f32) (v7 : Vec Ideal S2000x256 .f32)
    (v9 : Vec Ideal S256x256 .bf16) (v12 : Vec Ideal S256x256 .bf16) (v15 : Vec Ideal S1x256 .f32) (p : Fin 2000) (q : Fin 256) :
    k1_pay1 (F := Ideal) v0 v2 v7 v9 v12 v15 (ix2 p q)
      = Cert.Sage.layerMul (fun n k => v0 (ix2 n k)) (fun n => v2 (ix2 n (0 : Fin 1))) (fun n k => v7 (ix2 n k))
          (fun k j => v9 (ix2 k j)) (fun k j => v12 (ix2 k j)) (fun j => v15 (ix2 (0 : Fin 1) j)) p q := by
  unfold k1_pay1 Cert.Sage.layerMul
  dsimp only
  rw [maximumf_apply, addf_apply, addf_apply, broadcast_apply]
  rw [product_entry, product_entry,
    show (FloatOps.ofBits (F := Ideal) FTy.f32 0x00000000#32 : EReal) = 0 from Ideal.ofBits_zero_f32]
  simp only [truncf_apply, mulf_apply, shapeCast_self, Cert.ColumnLayout.broadcastTo_a1_ab_apply,
    broadcastTo_1b_ab_apply]

end Cert.KernelIdeal.Layer2

end
-- ==== Proof.Region2.lean ====
/-
  The array the second launch leaves.

  The launch walks 25 grid points; point t stages rows 2000·t … 2000·t + 1999 of the neighbour sums, of the reciprocal
  column and of the node features, the two weight matrices and the bias row whole, runs the body and writes the 2000
  result rows back to rows 2000·t … of the output. Entry (p, q) of what a point stores is the layer at row p of its
  blocks; a block's row p is row 2000·t + p of its array, so the stored block is rows 2000·t … of the layer applied
  to the whole arrays. The 25 blocks tile the 50000 rows (row r lies in block r / 2000), so the output array ends as
  that layer, every entry.
-/
import proofs.«111019_j30794915512417_2_alg».proof.Proof.Gen.KernelIdeal.Frame
import proofs.«111019_j30794915512417_2_alg».proof.Proof.Payload2
import proofs.«111019_j30794915512417_2_alg».proof.Proof.LayerRows
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- The layer over whole arrays: neighbour sums, reciprocal column, features, the transposed weights, the bias row. -/
def layer (A0 : S50000x256.Idx → EReal) (A1 : S50000x1.Idx → EReal) (A2 : S50000x256.Idx → EReal)
    (A3 : S256x256.Idx → EReal) (A4 : S1x256.Idx → EReal) (A5 : S256x256.Idx → EReal) : S50000x256.Idx → EReal :=
  fun i => Cert.Sage.layerMul (fun n k => A0 (ix2 n k)) (fun n => A1 (ix2 n (0 : Fin 1))) (fun n k => A2 (ix2 n k))
    (fun k j => A3 (ix2 k j)) (fun k j => A5 (ix2 k j)) (fun j => A4 (ix2 (0 : Fin 1) j)) (i 0) (i 1)

theorem origin : (![0, 0] : Fin 2 → Nat) = fun _ => 0 := funext fun a => by fin_cases a <;> rfl

/-- Where each window's block sits at grid point t: the three row-tiled inputs and the output at block row t, column
    block 0; the weights and the bias at block (0, 0). Decided over the 25 points. -/
theorem block_index : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) = t.val :=
  (by decide +kernel : ∀ t : Fin grid1.N, _)

variable (V : (c : Dev nD) → (b : Ref sig .tc) → Buf (Elt Ideal) ((c : Thread nD τ).loc b))

/-- What point t writes back is rows 2000·t … of the layer over the arrays as the launch finds them. -/
theorem flushed_eq (c : Dev nD) (t : Fin cfg1.N) :
    (dat1 V c).flushed 6 t = ((cfg1.win 6).blk t).view.read (Elt Ideal)
      (layer (V c main_v38) (V c main_v12) (V c main_v28) (V c main_v41) (V c main_v39) (V c main_v43)) := by
  show (cfg1.win 6).cut (grid1.coords t) ((dat1 V c).after 6 t) = _
  rw [after1_6]
  unfold out1_6
  rw [View.canon_unit_zero origin]
  simp only [View.ld_unit_zero (S := S2000x256) origin, View.ld_unit_zero (S := S2000x1) origin,
    View.ld_unit_zero (S := S256x256) origin, View.ld_unit_zero (S := S1x256) origin]
  obtain ⟨a0, a1, b0, b1, c0, c1, d0, d1, e0, e1, f0, f1, g1, g0⟩ := block_index t
  funext j
  show k1_pay1 (iblk1 V c 0 t) (iblk1 V c 1 t) (iblk1 V c 2 t) (iblk1 V c 3 t) (iblk1 V c 5 t) (iblk1 V c 4 t) j
      = layer (V c main_v38) (V c main_v12) (V c main_v28) (V c main_v41) (V c main_v39) (V c main_v43) (((cfg1.win 6).blk t).view.emb j)
  refine (congrArg _ (eq_ix2 (n0 := 2000) (n1 := 256) j)).trans
    ((Cert.KernelIdeal.Layer2.pay_apply _ _ _ _ _ _ (j 0) (j 1)).trans ?_)
  unfold layer
  refine Cert.Sage.layerMul_rows _ _ _ _ _ _ _ _ _ _ _ _ _ _ _ _
    (fun k => ?_) ?_ (fun k => ?_) (fun k => ?_) (fun k => ?_) ?_
  · show V c main_v38 (((cfg1.win 0).blk t).view.emb (ix2 (j 0) k)) = V c main_v38 (ix2 ((((cfg1.win 6).blk t).view.emb j) 0) k)
    refine congrArg (V c main_v38) (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 256 + 1 * k.val = k.val; omega
  · show V c main_v12 (((cfg1.win 1).blk t).view.emb (ix2 (j 0) (0 : Fin 1))) = V c main_v12 (ix2 ((((cfg1.win 6).blk t).view.emb j) 0) (0 : Fin 1))
    refine congrArg (V c main_v12) (funext fun a => Fin.ext ?_)
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 1 + 1 * 0 = 0; omega
  · show V c main_v28 (((cfg1.win 2).blk t).view.emb (ix2 (j 0) k)) = V c main_v28 (ix2 ((((cfg1.win 6).blk t).view.emb j) 0) k)
    refine congrArg (V c main_v28) (funext fun a => Fin.ext ?_)
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 256 + 1 * k.val = k.val; omega
  · show V c main_v41 (((cfg1.win 3).blk t).view.emb (ix2 k (j 1))) = V c main_v41 (ix2 k ((((cfg1.win 6).blk t).view.emb j) 1))
    refine congrArg (V c main_v41) (funext fun a => Fin.ext ?_)
    match a with
    | ⟨0, _⟩ => show win1_3.index t (0 : Fin 2) * 256 + 1 * k.val = k.val; omega
    | ⟨1, _⟩ => show win1_3.index t (1 : Fin 2) * 256 + 1 * (j 1).val = win1_6.index t (1 : Fin 2) * 256 + 1 * (j 1).val; omega
  · show V c main_v43 (((cfg1.win 5).blk t).view.emb (ix2 k (j 1))) = V c main_v43 (ix2 k ((((cfg1.win 6).blk t).view.emb j) 1))
    refine congrArg (V c main_v43) (funext fun a => Fin.ext ?_)
    match a with
    | ⟨0, _⟩ => show win1_5.index t (0 : Fin 2) * 256 + 1 * k.val = k.val; omega
    | ⟨1, _⟩ => show win1_5.index t (1 : Fin 2) * 256 + 1 * (j 1).val = win1_6.index t (1 : Fin 2) * 256 + 1 * (j 1).val; omega
  · show V c main_v39 (((cfg1.win 4).blk t).view.emb (ix2 (0 : Fin 1) (j 1))) = V c main_v39 (ix2 (0 : Fin 1) ((((cfg1.win 6).blk t).view.emb j) 1))
    refine congrArg (V c main_v39) (funext fun a => Fin.ext ?_)
    match a with
    | ⟨0, _⟩ => show win1_4.index t (0 : Fin 2) * 1 + 1 * 0 = 0; omega
    | ⟨1, _⟩ => show win1_4.index t (1 : Fin 2) * 256 + 1 * (j 1).val = win1_6.index t (1 : Fin 2) * 256 + 1 * (j 1).val; omega

/-- An index of the output array lies in point t's block iff each coordinate lies in the block's range on its axis. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v44).slice (win1_6.rect t)).set ↔ _
  rw [View.set_slice_whole, Rect.mem_set_unit]
  exact Iff.rfl

/-- Every entry of the output lies in some point's block: row r in the block of point r / 2000. -/
theorem cover (i : S50000x256.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 256 := (i 1).isLt
  have ht : (i 0).val / 2000 < cfg1.N := by rw [hN]; omega
  refine ⟨⟨(i 0).val / 2000, ht⟩, flush1_6 _, ?_⟩
  rw [mem_blk]
  obtain ⟨-, -, -, -, -, -, -, -, -, -, -, -, g1, g0⟩ := block_index ⟨(i 0).val / 2000, ht⟩
  have g0' : win1_6.index ⟨(i 0).val / 2000, ht⟩ (0 : Fin 2) = (i 0).val / 2000 := g0
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    omega

/-- After its 25 write-backs the output array is the layer over the arrays as the launch found them. -/
theorem final (c : Dev nD) : (dat1 V c).arrAt 6 cfg1.N
    = layer (V c main_v38) (V c main_v12) (V c main_v28) (V c main_v41) (V c main_v39) (V c main_v43) :=
  (dat1 V c).arrAt_eq_of_cover 6 _ (fun t _ => flushed_eq V c t) cover

end Cert.KernelIdeal.Region2

end
-- ==== Proof.Host.lean ====
/-
  The host side of the idealized kernel: what the launches find in their arrays.

  From the edge list `e` ([2, 500000]) the host takes the source row and the destination row, turns a negative source
  into source + 50000 (the gather's index column) and makes the destination an index column; counts the incoming edges
  of every node by adding 1 at each edge's destination into zeros, takes max (count, 1) and its reciprocal as a column;
  and aggregates a feature matrix by gathering the source rows and adding each at its edge's destination into zeros.
  A weight matrix is transposed (its narrowing to bf16 changes no extended real) and a bias becomes a [1, 256] row.
  The first launch finds the aggregate of the input features; the second the aggregate of the first launch's result, the
  same reciprocal column, and that result itself.
-/
import proofs.«111019_j30794915512417_2_alg».proof.Proof.Gen.KernelIdeal.Frame
import proofs.«111019_j30794915512417_2_alg».proof.Proof.Region1
import proofs.«111019_j30794915512417_2_alg».proof.Proof.Region2
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo
open Idealize.ShloMosaic.Pipeline (Dat)

/-! ## The pieces, as functions of the argument arrays -/

abbrev Edges := IVec S2x500000 32

/-- The edges' source nodes. -/
def src (e : Edges) : IVec S500000 32 :=
  shapeCast _ (extractStridedSlice S1x500000 ![0, 0] e slices_S2x500000_S1x500000_0_0) shapeCasts_S1x500000_S500000
/-- The edges' destination nodes. -/
def dst (e : Edges) : IVec S500000 32 :=
  shapeCast _ (extractStridedSlice S1x500000 ![1, 0] e slices_S2x500000_S1x500000_1_0) shapeCasts_S1x500000_S500000
/-- The gather's index column: a negative source wraps round by the number of nodes. -/
def srcCol (e : Edges) : IVec S500000x1 32 :=
  broadcastInDim S500000x1 ![0] bcast_S500000_S500000x1_0
    (select (cmpi .slt (src e) (broadcastInDim S500000 ![] bcast_S_S500000 (constantI S_ 32 0#32)))
      (addi (src e) (broadcastInDim S500000 ![] bcast_S_S500000 (constantI S_ 32 50000#32))) (src e))
/-- The scatter's index column. -/
def dstCol (e : Edges) : IVec S500000x1 32 :=
  broadcastInDim S500000x1 ![0] bcast_S500000_S500000x1_0 (dst e)
/-- Every node's number of incoming edges. -/
def count (e : Edges) : FVec Ideal S50000 .f32 :=
  Host.scatterAdd (F := Ideal) scatter_S50000_S500000x1_S500000_n_0_0_1
    (broadcastInDim S50000 ![] bcast_S_S50000 (constant (F := Ideal) S_ .f32 0x00000000#32)) (dstCol e)
    (broadcastInDim S500000 ![] bcast_S_S500000 (constant (F := Ideal) S_ .f32 0x3F800000#32))
/-- max (count, 1). -/
def countMax (e : Edges) : FVec Ideal S50000 .f32 :=
  maximumf (F := Ideal) (count e) (broadcastInDim S50000 ![] bcast_S_S50000 (constant (F := Ideal) S_ .f32 0x3F800000#32))
/-- The reciprocal column 1 / max (count, 1). -/
def recip (e : Edges) : FVec Ideal S50000x1 .f32 :=
  shapeCast _ (Host.divf (F := Ideal) (broadcastInDim S50000 ![] bcast_S_S50000 (constant (F := Ideal) S_ .f32 0x3F800000#32)) (countMax e)) shapeCasts_S50000_S50000x1
/-- The neighbour sums of a [50000, 128] feature matrix. -/
def agg1 (x : FVec Ideal S50000x128 .f32) (e : Edges) : FVec Ideal S50000x128 .f32 :=
  Host.scatterAdd (F := Ideal) scatter_S50000x128_S500000x1_S500000x128_1_0_0_1
    (broadcastInDim S50000x128 ![] bcast_S_S50000x128 (constant (F := Ideal) S_ .f32 0x00000000#32)) (dstCol e)
    (Host.gather gather_S50000x128_S500000x1_S500000x128_1_0_n_n_0_1_1128 x (srcCol e))
/-- The neighbour sums of a [50000, 256] feature matrix. -/
def agg2 (h : FVec Ideal S50000x256 .f32) (e : Edges) : FVec Ideal S50000x256 .f32 :=
  Host.scatterAdd (F := Ideal) scatter_S50000x256_S500000x1_S500000x256_1_0_0_1
    (broadcastInDim S50000x256 ![] bcast_S_S50000x256 (constant (F := Ideal) S_ .f32 0x00000000#32)) (dstCol e)
    (Host.gather gather_S50000x256_S500000x1_S500000x256_1_0_n_n_0_1_1256 h (srcCol e))
/-- A [256, 128] weight matrix transposed. -/
def wT1 (w : FVec Ideal S256x128 .f32) : FVec Ideal S128x256 .bf16 :=
  truncf (F := Ideal) .bf16 (transpose S128x256 [1, 0] w transposes_S256x128_S128x256_1_0) bitsLt_bf16_f32
/-- A [256, 256] weight matrix transposed. -/
def wT2 (w : FVec Ideal S256x256 .f32) : FVec Ideal S256x256 .bf16 :=
  truncf (F := Ideal) .bf16 (transpose S256x256 [1, 0] w transposes_S256x256_S256x256_1_0) bitsLt_bf16_f32
/-- A bias as a [1, 256] row. -/
def bRow (b : FVec Ideal S256 .f32) : FVec Ideal S1x256 .f32 :=
  shapeCast _ b shapeCasts_S256_S1x256

variable (m : (ℓ : Loc nD τ sig) → Buf (Elt Ideal) ℓ) (ρ : Dev nD → PrngReg) (c : Dev nD)

/-! ## What the first launch finds -/

theorem W1_arg0 : W1 m ρ c (Proc.devRef .tc main_arg0) = (m ((c.tc : Thread nD τ).loc main_arg0)) := by
  show StableHlo.after hostOps0 (W0 m ρ c) (Proc.devRef .tc main_arg0) = _
  after_results_simp <;> rfl
theorem W1_arg5 : W1 m ρ c (Proc.devRef .tc main_arg5) = (m ((c.tc : Thread nD τ).loc main_arg5)) := by
  show StableHlo.after hostOps0 (W0 m ρ c) (Proc.devRef .tc main_arg5) = _
  after_results_simp <;> rfl
theorem W1_arg6 : W1 m ρ c (Proc.devRef .tc main_arg6) = (m ((c.tc : Thread nD τ).loc main_arg6)) := by
  show StableHlo.after hostOps0 (W0 m ρ c) (Proc.devRef .tc main_arg6) = _
  after_results_simp <;> rfl
theorem W1_arg7 : W1 m ρ c (Proc.devRef .tc main_arg7) = (m ((c.tc : Thread nD τ).loc main_arg7)) := by
  show StableHlo.after hostOps0 (W0 m ρ c) (Proc.devRef .tc main_arg7) = _
  after_results_simp <;> rfl

theorem first_agg : V1 m ρ c main_v22 = agg1 (m ((c.tc : Thread nD τ).loc main_arg0)) (m ((c.tc : Thread nD τ).loc main_arg1)) := by
  show StableHlo.after hostOps0 (W0 m ρ c) (Proc.devRef .tc main_v22) = _
  after_results_simp
  rfl

theorem first_recip : V1 m ρ c main_v12 = recip (m ((c.tc : Thread nD τ).loc main_arg1)) := by
  show StableHlo.after hostOps0 (W0 m ρ c) (Proc.devRef .tc main_v12) = _
  after_results_simp
  rfl
theorem first_feat : V1 m ρ c main_arg0 = (m ((c.tc : Thread nD τ).loc main_arg0)) := W1_arg0 m ρ c
theorem first_wl : V1 m ρ c main_v25 = wT1 (m ((c.tc : Thread nD τ).loc main_arg2)) := by
  show StableHlo.after hostOps0 (W0 m ρ c) (Proc.devRef .tc main_v25) = _
  after_results_simp
  rfl
theorem first_b : V1 m ρ c main_v23 = bRow (m ((c.tc : Thread nD τ).loc main_arg3)) := by
  show StableHlo.after hostOps0 (W0 m ρ c) (Proc.devRef .tc main_v23) = _
  after_results_simp
  rfl
theorem first_wr : V1 m ρ c main_v27 = wT1 (m ((c.tc : Thread nD τ).loc main_arg4)) := by
  show StableHlo.after hostOps0 (W0 m ρ c) (Proc.devRef .tc main_v27) = _
  after_results_simp
  rfl
theorem first_src : W1 m ρ c (Proc.devRef .tc main_v1) = src (m ((c.tc : Thread nD τ).loc main_arg1)) := by
  show StableHlo.after hostOps0 (W0 m ρ c) (Proc.devRef .tc main_v1) = _
  after_results_simp
  rfl
theorem first_dst : W1 m ρ c (Proc.devRef .tc main_v3) = dst (m ((c.tc : Thread nD τ).loc main_arg1)) := by
  show StableHlo.after hostOps0 (W0 m ρ c) (Proc.devRef .tc main_v3) = _
  after_results_simp
  rfl

/-- The first launch's result: the layer over the aggregate of the input features. -/
def hidden (x : FVec Ideal S50000x128 .f32) (e : Edges) (wl : FVec Ideal S256x128 .f32) (b : FVec Ideal S256 .f32)
    (wr : FVec Ideal S256x128 .f32) : FVec Ideal S50000x256 .f32 :=
  Region1.layer (agg1 x e) (recip e) x (wT1 wl) (bRow b) (wT1 wr)

theorem first_result : W2 m ρ c (Proc.devRef .tc main_v28) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 6).trans ?_
  rw [Region1.final (V1 m ρ) c, first_agg, first_recip, first_feat, first_wl, first_b, first_wr]
  rfl

/-! ## What the second launch finds -/

theorem mid_src : W2 m ρ c (Proc.devRef .tc main_v1) = src (m ((c.tc : Thread nD τ).loc main_arg1)) :=
  (W2_of_ne m ρ c main_v1 (by decide)).trans (first_src m ρ c)
theorem mid_dst : W2 m ρ c (Proc.devRef .tc main_v3) = dst (m ((c.tc : Thread nD τ).loc main_arg1)) :=
  (W2_of_ne m ρ c main_v3 (by decide)).trans (first_dst m ρ c)
theorem mid_recip : W2 m ρ c (Proc.devRef .tc main_v12) = recip (m ((c.tc : Thread nD τ).loc main_arg1)) :=
  ((W2_arr m ρ c 1).trans (((dat0 (V1 m ρ) c).arrAt_in 1 rfl _).trans (A_eq0 (V1 m ρ) c 1))).trans (first_recip m ρ c)
theorem mid_arg5 : W2 m ρ c (Proc.devRef .tc main_arg5) = (m ((c.tc : Thread nD τ).loc main_arg5)) :=
  (W2_of_ne m ρ c main_arg5 (by decide)).trans (W1_arg5 m ρ c)
theorem mid_arg6 : W2 m ρ c (Proc.devRef .tc main_arg6) = (m ((c.tc : Thread nD τ).loc main_arg6)) :=
  (W2_of_ne m ρ c main_arg6 (by decide)).trans (W1_arg6 m ρ c)
theorem mid_arg7 : W2 m ρ c (Proc.devRef .tc main_arg7) = (m ((c.tc : Thread nD τ).loc main_arg7)) :=
  (W2_of_ne m ρ c main_arg7 (by decide)).trans (W1_arg7 m ρ c)

theorem second_agg : V3 m ρ c main_v38 = agg2 (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  show StableHlo.after hostOps1 (W2 m ρ c) (Proc.devRef .tc main_v38) = _
  after_results_simp
  rw [first_result, mid_src, mid_dst]
  rfl
theorem second_recip : V3 m ρ c main_v12 = recip (m ((c.tc : Thread nD τ).loc main_arg1)) := by
  show StableHlo.after hostOps1 (W2 m ρ c) (Proc.devRef .tc main_v12) = _
  after_results_simp
  exact mid_recip m ρ c
theorem second_feat : V3 m ρ c main_v28 = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v28) = _
  after_results_simp
  exact first_result m ρ c
theorem second_wl : V3 m ρ c main_v41 = wT2 (m ((c.tc : Thread nD τ).loc main_arg5)) := by
  show StableHlo.after hostOps1 (W2 m ρ c) (Proc.devRef .tc main_v41) = _
  after_results_simp
  rw [mid_arg5]
  rfl
theorem second_b : V3 m ρ c main_v39 = bRow (m ((c.tc : Thread nD τ).loc main_arg6)) := by
  show StableHlo.after hostOps1 (W2 m ρ c) (Proc.devRef .tc main_v39) = _
  after_results_simp
  rw [mid_arg6]
  rfl
theorem second_wr : V3 m ρ c main_v43 = wT2 (m ((c.tc : Thread nD τ).loc main_arg7)) := by
  show StableHlo.after hostOps1 (W2 m ρ c) (Proc.devRef .tc main_v43) = _
  after_results_simp
  rw [mid_arg7]
  rfl

/-- The kernel's result as one function of the argument arrays: the layer over the aggregate of the first layer's
    result. -/
def output (x : FVec Ideal S50000x128 .f32) (e : Edges) (w1l : FVec Ideal S256x128 .f32) (b1 : FVec Ideal S256 .f32)
    (w1r : FVec Ideal S256x128 .f32) (w2l : FVec Ideal S256x256 .f32) (b2 : FVec Ideal S256 .f32)
    (w2r : FVec Ideal S256x256 .f32) : FVec Ideal S50000x256 .f32 :=
  Region2.layer (agg2 (hidden x e w1l b1 w1r) e) (recip e) (hidden x e w1l b1 w1r) (wT2 w2l) (bRow b2) (wT2 w2r)

theorem result : W4 m ρ c (Proc.devRef .tc main_v44)
    = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 6).trans ?_
  rw [Region2.final (V3 m ρ) c, second_agg, second_recip, second_feat, second_wl, second_b, second_wr]
  rfl

end Cert.KernelIdeal.Host

end
-- ==== Proof.RefLayers.lean ====
/-
  The reference's two layers, read at one entry.

  The reference divides the neighbour sums by max (count, 1) — the count broadcast to a column and then across the row —,
  multiplies by the transposed weight matrix, adds the bias broadcast down the rows and the product of the features
  with the second transposed weight matrix, and takes the maximum with 0. Read at entry (n, j), one operation at a time,
  that is the layer with the mean as a quotient:
      max ((∑ k, agg[n, k] / max (cnt[n], 1) · wl[k, j]) + b[j] + ∑ k, h[n, k] · wr[k, j], 0).
-/
import proofs.«111019_j30794915512417_2_alg».proof.Proof.Gen.ReferenceIdeal.Read
import proofs.«111019_j30794915512417_2_alg».proof.Proof.MeanLaw
import Idealize.ShloMosaic.Lib.ValueIdx

noncomputable section

namespace Cert.ReferenceIdeal.Layers

open Cert.ReferenceIdeal Cert.ReferenceIdeal.Read Idealize.ShloMosaic Idealize.ShloMosaic.ValueIdx

variable (x0 : (⟨S50000x128, .f32⟩ : BufTy).Contents (Elt Ideal)) (x1 : (⟨S2x500000, .i32⟩ : BufTy).Contents (Elt Ideal))
  (x2 : (⟨S256x128, .f32⟩ : BufTy).Contents (Elt Ideal)) (x3 : (⟨S256, .f32⟩ : BufTy).Contents (Elt Ideal)) (x4 : (⟨S256x128, .f32⟩ : BufTy).Contents (Elt Ideal))
  (x5 : (⟨S256x256, .f32⟩ : BufTy).Contents (Elt Ideal)) (x6 : (⟨S256, .f32⟩ : BufTy).Contents (Elt Ideal)) (x7 : (⟨S256x256, .f32⟩ : BufTy).Contents (Elt Ideal))

/-- Entry (n, j) of the first layer. -/
theorem first (n : Fin 50000) (j : Fin 256) :
    val_main_v31 (F := Ideal) x0 x1 x2 x3 x4 (ix2 n j)
      = Cert.Sage.layerDiv (fun n k => val_main_v13 (F := Ideal) x0 x1 (ix2 n k)) (fun n => val_main_v17 (F := Ideal) x1 (ix1 n))
          (fun n k => x0 (ix2 n k)) (fun k j => val_main_v23 (F := Ideal) x2 (ix2 k j))
          (fun k j => val_main_v28 (F := Ideal) x4 (ix2 k j)) (fun j => x3 (ix1 j)) n j := by
  have i1 : ∀ k : Fin 128, lidx_main_v24 (ix2 n j) k = ix2 n k := fun k =>
    funext fun a => Fin.ext (by match a with | ⟨0, _⟩ => rfl | ⟨1, _⟩ => rfl)
  have i2 : ∀ k : Fin 128, ridx_main_v24 (ix2 n j) k = ix2 k j := fun k =>
    funext fun a => Fin.ext (by match a with | ⟨0, _⟩ => rfl | ⟨1, _⟩ => rfl)
  have i3 : ∀ k : Fin 128, lidx_main_v29 (ix2 n j) k = ix2 n k := fun k =>
    funext fun a => Fin.ext (by match a with | ⟨0, _⟩ => rfl | ⟨1, _⟩ => rfl)
  have i4 : ∀ k : Fin 128, ridx_main_v29 (ix2 n j) k = ix2 k j := fun k =>
    funext fun a => Fin.ext (by match a with | ⟨0, _⟩ => rfl | ⟨1, _⟩ => rfl)
  have i5 : ∀ k : Fin 128, idx_main_v20 (idx_main_v21 (ix2 n k)) = ix1 n := fun k =>
    funext fun a => Fin.ext (by match a with | ⟨0, _⟩ => rfl)
  have i6 : idx_main_v25 (idx_main_v26 (ix2 n j)) = ix1 j :=
    funext fun a => Fin.ext (by match a with | ⟨0, _⟩ => rfl)
  rw [val_main_v31_apply, val_main_v30_apply, val_main_v27_apply, val_main_v24_apply, val_main_v29_apply,
    val_main_v26_apply, val_main_v25_apply, val_main_call0_v0_apply, val_main_call0_cst_apply]
  simp only [i1, i2, i3, i4, i6, val_main_v22_apply, val_main_v21_apply, val_main_v20_apply, i5, val_main_v19_apply,
    val_main_v18_apply, val_main_cst_3_apply]
  unfold Cert.Sage.layerDiv
  simp only [Ideal.maximumf_def, Ideal.addf_def, Ideal.hostDivf_def, Ideal.ofBits_def, Cert.Sage.ofBits_one_f32,
    Ideal.ofBits_zero_f32]

/-- Entry (n, j) of the second layer, over the first layer's result. -/
theorem second (n : Fin 50000) (j : Fin 256) :
    val_main_v59 (F := Ideal) x0 x1 x2 x3 x4 x5 x6 x7 (ix2 n j)
      = Cert.Sage.layerDiv (fun n k => val_main_v41 (F := Ideal) x0 x1 x2 x3 x4 (ix2 n k)) (fun n => val_main_v45 (F := Ideal) x1 (ix1 n))
          (fun n k => val_main_v31 (F := Ideal) x0 x1 x2 x3 x4 (ix2 n k)) (fun k j => val_main_v51 (F := Ideal) x5 (ix2 k j))
          (fun k j => val_main_v56 (F := Ideal) x7 (ix2 k j)) (fun j => x6 (ix1 j)) n j := by
  have i1 : ∀ k : Fin 256, lidx_main_v52 (ix2 n j) k = ix2 n k := fun k =>
    funext fun a => Fin.ext (by match a with | ⟨0, _⟩ => rfl | ⟨1, _⟩ => rfl)
  have i2 : ∀ k : Fin 256, ridx_main_v52 (ix2 n j) k = ix2 k j := fun k =>
    funext fun a => Fin.ext (by match a with | ⟨0, _⟩ => rfl | ⟨1, _⟩ => rfl)
  have i3 : ∀ k : Fin 256, lidx_main_v57 (ix2 n j) k = ix2 n k := fun k =>
    funext fun a => Fin.ext (by match a with | ⟨0, _⟩ => rfl | ⟨1, _⟩ => rfl)
  have i4 : ∀ k : Fin 256, ridx_main_v57 (ix2 n j) k = ix2 k j := fun k =>
    funext fun a => Fin.ext (by match a with | ⟨0, _⟩ => rfl | ⟨1, _⟩ => rfl)
  have i5 : ∀ k : Fin 256, idx_main_v48 (idx_main_v49 (ix2 n k)) = ix1 n := fun k =>
    funext fun a => Fin.ext (by match a with | ⟨0, _⟩ => rfl)
  have i6 : idx_main_v53 (idx_main_v54 (ix2 n j)) = ix1 j :=
    funext fun a => Fin.ext (by match a with | ⟨0, _⟩ => rfl)
  rw [val_main_v59_apply, val_main_v58_apply, val_main_v55_apply, val_main_v52_apply, val_main_v57_apply,
    val_main_v54_apply, val_main_v53_apply, val_main_call1_v0_apply, val_main_call1_cst_apply]
  simp only [i1, i2, i3, i4, i6, val_main_v50_apply, val_main_v49_apply, val_main_v48_apply, i5, val_main_v47_apply,
    val_main_v46_apply, val_main_cst_9_apply]
  unfold Cert.Sage.layerDiv
  simp only [Ideal.maximumf_def, Ideal.addf_def, Ideal.hostDivf_def, Ideal.ofBits_def, Cert.Sage.ofBits_one_f32,
    Ideal.ofBits_zero_f32]

end Cert.ReferenceIdeal.Layers

end
-- ==== Proof.Bridge.lean ====
/-
  The reference computes the kernel's function.

  Both programs take the same host pieces from the edge list — the index columns, the per-node edge count, the
  aggregation of a feature matrix — and the same transposed weights; they differ only in how the mean is taken. The
  kernel multiplies the neighbour sums by the reciprocal column 1 / max (count, 1); the reference divides by
  max (count, 1). Since max (count, 1) is never 0 the two agree on every extended real, so the first layer's results are
  one array, the second layer aggregates that one array in both programs, and the same law joins the second layer.
-/
import proofs.«111019_j30794915512417_2_alg».proof.Proof.Host
import proofs.«111019_j30794915512417_2_alg».proof.Proof.RefLayers
import proofs.«111019_j30794915512417_2_alg».proof.Proof.LibColumnLayout
import Idealize.ShloMosaic.Lib.ValueLayout
import Idealize.ShloMosaic.Lib.Pipeline.Value

noncomputable section

namespace Cert.Bridge

open Idealize.ShloMosaic Idealize.ShloMosaic.ValueIdx
open Cert.KernelIdeal.Host
open Cert.ReferenceIdeal.Read

variable (x0 : FVec Ideal Cert.KernelIdeal.S50000x128 .f32) (x1 : IVec Cert.KernelIdeal.S2x500000 32)
  (x2 : FVec Ideal Cert.KernelIdeal.S256x128 .f32) (x3 : FVec Ideal Cert.KernelIdeal.S256 .f32) (x4 : FVec Ideal Cert.KernelIdeal.S256x128 .f32)
  (x5 : FVec Ideal Cert.KernelIdeal.S256x256 .f32) (x6 : FVec Ideal Cert.KernelIdeal.S256 .f32) (x7 : FVec Ideal Cert.KernelIdeal.S256x256 .f32)

/-- A splat of the word of 1 reads 1 everywhere. -/
theorem one_splat {s : Shape} (h : (Cert.KernelIdeal.S_).BroadcastsInDim s ![]) (i : s.Idx) :
    broadcastInDim s ![] h (constant (F := Ideal) Cert.KernelIdeal.S_ .f32 0x3F800000#32) i = 1 := by
  rw [broadcastInDim_apply _ h _ i (fun a => a.elim0) (fun a => a.elim0)]
  exact Cert.Sage.ofBits_one_f32

/-- The reciprocal column at node n is 1 / max (count n, 1). -/
theorem recip_apply (e : Edges) (n : Fin 50000) :
    recip e (ix2 n (0 : Fin 1)) = Ideal.div 1 (max (count e (ix1 n)) 1) := by
  unfold recip
  rw [Cert.ColumnLayout.shapeCast_a_a1_apply]
  simp only [countMax, Host.divf, maximumf, Ideal.hostDivf_def, Ideal.maximumf_def]
  rw [one_splat]

/-- A bias read as a row is the bias. -/
theorem bRow_apply (b : FVec Ideal Cert.KernelIdeal.S256 .f32) : (fun j : Fin 256 => b (ix1 j)) = fun j => bRow b (ix2 (0 : Fin 1) j) :=
  funext fun j => (shapeCast_a_1a_apply b _ 0 j).symm

/-- The first layer: the reference's result is the kernel's first launch's. -/
theorem hidden_eq : val_main_v31 (F := Ideal) x0 x1 x2 x3 x4 = hidden x0 x1 x2 x3 x4 := by
  funext i
  obtain ⟨n, j, rfl⟩ : ∃ (n : Fin 50000) (j : Fin 256), i = ix2 n j := ⟨i 0, i 1, eq_ix2 i⟩
  rw [Cert.ReferenceIdeal.Layers.first]
  refine Eq.trans ?_ (congrFun (congrFun (Cert.Sage.layer_eq
      (fun n k => agg1 x0 x1 (ix2 n k)) (fun n => recip x1 (ix2 n (0 : Fin 1))) (fun n => count x1 (ix1 n))
      (fun n k => x0 (ix2 n k)) (fun k j => wT1 x2 (ix2 k j)) (fun k j => wT1 x4 (ix2 k j))
      (fun j => bRow x3 (ix2 (0 : Fin 1) j)) (recip_apply x1)) n) j).symm
  rw [bRow_apply x3]
  rfl

/-- The second layer's aggregate is the aggregate of the one first-layer array. -/
theorem agg_eq : val_main_v41 (F := Ideal) x0 x1 x2 x3 x4 = agg2 (hidden x0 x1 x2 x3 x4) x1 := by
  rw [← hidden_eq]
  rfl

/-- The reference's result is the kernel's. -/
theorem output_eq : val_main_v59 (F := Ideal) x0 x1 x2 x3 x4 x5 x6 x7 = output x0 x1 x2 x3 x4 x5 x6 x7 := by
  funext i
  obtain ⟨n, j, rfl⟩ : ∃ (n : Fin 50000) (j : Fin 256), i = ix2 n j := ⟨i 0, i 1, eq_ix2 i⟩
  rw [Cert.ReferenceIdeal.Layers.second]
  refine Eq.trans ?_ (congrFun (congrFun (Cert.Sage.layer_eq
      (fun n k => agg2 (hidden x0 x1 x2 x3 x4) x1 (ix2 n k)) (fun n => recip x1 (ix2 n (0 : Fin 1))) (fun n => count x1 (ix1 n))
      (fun n k => hidden x0 x1 x2 x3 x4 (ix2 n k)) (fun k j => wT2 x5 (ix2 k j)) (fun k j => wT2 x7 (ix2 k j))
      (fun j => bRow x6 (ix2 (0 : Fin 1) j)) (recip_apply x1)) n) j).symm
  rw [agg_eq, hidden_eq, bRow_apply x6]
  rfl

end Cert.Bridge

end
-- ==== Proof.lean ====
/-
  Two stacked graph layers with mean aggregation, the kernel against its reference, on the extended reals.

  Each layer sends node features h ([50000, K]) to
      max (mean · Wlᵀ + b + h · Wrᵀ, 0),     mean[n, ·] = (the sum of h over n's incoming edges) / max (count n, 1).
  The kernel gathers and scatter-adds on the host and runs the dense part in a launch tiled over 2000-row blocks, with the
  mean taken as a product with the reciprocal column 1 / max (count, 1) computed once; the reference divides. The proof
  reads each launch's output array as that layer of the arrays the launch finds (the block a grid point stores is
  2000 rows of it, and the 25 blocks tile the rows), reads the host operations around the launches, reads the reference
  one operation at a time at an entry, and joins the two by the one law a · (1 / c) = a / c for c ≠ 0 — here
  c = max (count, 1) ≥ 1. No finiteness of the inputs is used.

  The three frames are the generated ones (the reference's is its run with the result dropped); the idealization
  rewrote nothing, so the kernel's idealized text is its own text read on the extended reals.
-/
import proofs.«111019_j30794915512417_2_alg».proof.Defs
import proofs.«111019_j30794915512417_2_alg».proof.Proof.Gen.Kernel
import proofs.«111019_j30794915512417_2_alg».proof.Proof.Gen.Kernel.Skeleton
import proofs.«111019_j30794915512417_2_alg».proof.Proof.Gen.Kernel.Launch
import proofs.«111019_j30794915512417_2_alg».proof.Proof.Gen.Kernel.Points
import proofs.«111019_j30794915512417_2_alg».proof.Proof.Gen.Kernel.Frame
import proofs.«111019_j30794915512417_2_alg».proof.Proof.Gen.KernelIdeal
import proofs.«111019_j30794915512417_2_alg».proof.Proof.Gen.KernelIdeal.Skeleton
import proofs.«111019_j30794915512417_2_alg».proof.Proof.Gen.KernelIdeal.Launch
import proofs.«111019_j30794915512417_2_alg».proof.Proof.Gen.KernelIdeal.Points
import proofs.«111019_j30794915512417_2_alg».proof.Proof.Gen.KernelIdeal.Frame
import proofs.«111019_j30794915512417_2_alg».proof.Proof.Gen.ReferenceIdeal
import proofs.«111019_j30794915512417_2_alg».proof.Proof.Gen.Pre_finite_inputs
import proofs.«111019_j30794915512417_2_alg».proof.Proof.Gen.ReferenceIdeal.Run
import proofs.«111019_j30794915512417_2_alg».proof.Proof.Gen.ReferenceIdeal.Read
import proofs.«111019_j30794915512417_2_alg».proof.Proof.KernelRun
import proofs.«111019_j30794915512417_2_alg».proof.Proof.Host
import proofs.«111019_j30794915512417_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the kernel's closed-form result: the kernel by its
    run read through the two launches, the reference by its run and the bridge. -/
theorem algebraic : Cert.algebraic_KernelIdeal_ReferenceIdeal := by
  intro m ρ m' ρ' _ hagree
  refine ⟨fun c => Cert.KernelIdeal.Host.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Host.result m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Bridge.output_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
